-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512x2 : Shape := ⟨3, ![16384, 512, 2]⟩
abbrev S16384x512 : Shape := ⟨2, ![16384, 512]⟩
abbrev S_ : Shape := ⟨0, ![]⟩

class Facts : Prop where
  bcast_S_S16384x512x2 : S_.BroadcastsInDim S16384x512x2 (![] : Fin 0 → Fin S16384x512x2.rank)
  reducesTo_S16384x512x2_S_d0_1_2 : S16384x512x2.ReducesTo [0, 1, 2] S_
  h_S_ : 0 < S_.numel
  bcast_S_S16384x512 : S_.BroadcastsInDim S16384x512 (![] : Fin 0 → Fin S16384x512.rank)
  reducesTo_S16384x512_S_d0_1 : S16384x512.ReducesTo [0, 1] S_

variable [Facts]

def fn {F : FTy → Type} [FloatOps F] (main_arg0 : FVec F S16384x512x2 .f32) (main_arg1 : FVec F S16384x512x2 .f32) (main_arg2 : FVec F S16384x512 .f32) : IVec S_ 1 :=
  let main_v0 : FVec F S16384x512x2 .f32 := Host.absf main_arg0
  let main_cst : FVec F S_ .f32 := constant S_ .f32 0x7F800000#32
  let main_v1 : FVec F S16384x512x2 .f32 := broadcastInDim S16384x512x2 ![] bcast_S_S16384x512x2 main_cst
  let main_v2 : IVec S16384x512x2 1 := cmpf .olt main_v0 main_v1
  let main_c : IVec S_ 1 := constantI S_ 1 1#1
  let main_v3 : IVec S_ 1 := (fun x v => Host.reduce IntOp.andi x v reducesTo_S16384x512x2_S_d0_1_2 h_S_) main_v2 main_c
  let main_v4 : FVec F S16384x512x2 .f32 := Host.absf main_arg1
  let main_cst_0 : FVec F S_ .f32 := constant S_ .f32 0x7F800000#32
  let main_v5 : FVec F S16384x512x2 .f32 := broadcastInDim S16384x512x2 ![] bcast_S_S16384x512x2 main_cst_0
  let main_v6 : IVec S16384x512x2 1 := cmpf .olt main_v4 main_v5
  let main_c_1 : IVec S_ 1 := constantI S_ 1 1#1
  let main_v7 : IVec S_ 1 := (fun x v => Host.reduce IntOp.andi x v reducesTo_S16384x512x2_S_d0_1_2 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  main_v13
-- ==== Kernel.lean ====
abbrev S16384x512x2 : Shape := ⟨3, ![16384, 512, 2]⟩
abbrev S16384x512 : Shape := ⟨2, ![16384, 512]⟩
abbrev S1x2 : Shape := ⟨2, ![1, 2]⟩
abbrev S2048x512x2 : Shape := ⟨3, ![2048, 512, 2]⟩
abbrev S2048x512 : Shape := ⟨2, ![2048, 512]⟩
abbrev S2048x512x1 : Shape := ⟨3, ![2048, 512, 1]⟩
abbrev S2 : Shape := ⟨1, ![2]⟩

abbrev nBuf : Space → Nat
  | .hbm => 5
  | .vmem => 8
  | .smem => 0
  | _ => 0

abbrev bufTy : (tb : Table) → Fin (tcTables nBuf tb) → BufTy
  | .hbm, ⟨0, _⟩ => ⟨S16384x512x2, .f32⟩
  | .hbm, ⟨1, _⟩ => ⟨S16384x512x2, .f32⟩
  | .hbm, ⟨2, _⟩ => ⟨S16384x512, .f32⟩
  | .hbm, ⟨3, _⟩ => ⟨S1x2, .f32⟩
  | .hbm, ⟨4, _⟩ => ⟨S2, .f32⟩
  | .local _ .vmem, ⟨0, _⟩ => ⟨S2048x512x2, .f32⟩
  | .local _ .vmem, ⟨1, _⟩ => ⟨S2048x512x2, .f32⟩
  | .local _ .vmem, ⟨2, _⟩ => ⟨S2048x512x2, .f32⟩
  | .local _ .vmem, ⟨3, _⟩ => ⟨S2048x512x2, .f32⟩
  | .local _ .vmem, ⟨4, _⟩ => ⟨S2048x512, .f32⟩
  | .local _ .vmem, ⟨5, _⟩ => ⟨S2048x512, .f32⟩
  | .local _ .vmem, ⟨6, _⟩ => ⟨S1x2, .f32⟩
  | .local _ .vmem, ⟨7, _⟩ => ⟨S1x2, .f32⟩
  | _, _ => ⟨S16384x512x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v31 : BitVec 1 := Scalar.cmpi .eq arg0 c7_i32
  let v32 : BitVec 32 := Scalar.extui v31
  let c0_i32_15 : BitVec 32 := 0#32
  let v33 : BitVec 1 := Scalar.cmpi .ne v32 c0_i32_15
  v33

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x2_S1x2_0_0 : ∀ a, (![0, 0] : Fin 2 → Nat) a + S1x2.size a ≤ S1x2.size a
  h_S1x2 : 0 < S1x2.numel
  shapeCasts_S1x2_S1x2 : S1x2.ShapeCasts S1x2
  inb_S2048x512x2_S2048x512x2_0_0_0 : ∀ a, (![0, 0, 0] : Fin 3 → Nat) a + S2048x512x2.size a ≤ S2048x512x2.size a
  h_S2048x512x2 : 0 < S2048x512x2.numel
  inb_S2048x512_S2048x512_0_0 : ∀ a, (![0, 0] : Fin 2 → Nat) a + S2048x512.size a ≤ S2048x512.size a
  h_S2048x512 : 0 < S2048x512.numel
  slices_S2048x512x2_o0_0_0_S2048x512x1 : S2048x512x2.Slices ![0, 0, 0] S2048x512x1
  slices_S2048x512x2_o0_0_1_S2048x512x1 : S2048x512x2.Slices ![0, 0, 1] S2048x512x1
  broadcasts_S2048x512x1_S2048x512x2 : S2048x512x1.Broadcasts S2048x512x2
  shapeCasts_S2048x512_S2048x512x1 : S2048x512.ShapeCasts S2048x512x1
  reduces_S2048x512x2_S2 : S2048x512x2.Reduces [0, 1] S2
  shapeCasts_S1x2_S2 : S1x2.ShapeCasts S2
  shapeCasts_S2_S1x2 : S2.ShapeCasts S1x2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512x2.size a ≤ S16384x512x2.size a
  hwx0_0 : ∀ i : grid0.Coords, EltTy.bits .f32 = 32 ∨ (Rect.block (s := S16384x512x2) S2048x512x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512x2.size a ≤ S16384x512x2.size a
  hwx0_1 : ∀ i : grid0.Coords, EltTy.bits .f32 = 32 ∨ (Rect.block (s := S16384x512x2) S2048x512x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S16384x512.size a
  hwx0_2 : ∀ i : grid0.Coords, EltTy.bits .f32 = 32 ∨ (Rect.block (s := S16384x512) S2048x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2.size a ≤ S1x2.size a
  hwx0_3 : ∀ i : grid0.Coords, EltTy.bits .f32 = 32 ∨ (Rect.block (s := S1x2) S1x2.size (cc0_transform_3 i) (hinb0_3 i)).WholeWords (EltTy.packing .f32)

variable [Facts₀]

abbrev win0_0 : Pipeline.Window sig grid0 :=
  Pipeline.Window.ofSpec (Memref.whole main_arg0) S2048x512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x512x2 : Shape := ⟨3, ![16384, 512, 2]⟩
abbrev S16384x512 : Shape := ⟨2, ![16384, 512]⟩
abbrev S16384x512x1 : Shape := ⟨3, ![16384, 512, 1]⟩
abbrev S_ : Shape := ⟨0, ![]⟩
abbrev S2 : Shape := ⟨1, ![2]⟩

abbrev nBuf : Space → Nat
  | .hbm => 30
  | .vmem => 0
  | .smem => 0
  | _ => 0

abbrev bufTy : (tb : Table) → Fin (tcTables nBuf tb) → BufTy
  | .hbm, ⟨0, _⟩ => ⟨S16384x512x2, .f32⟩
  | .hbm, ⟨1, _⟩ => ⟨S16384x512x2, .f32⟩
  | .hbm, ⟨2, _⟩ => ⟨S16384x512, .f32⟩
  | .hbm, ⟨3, _⟩ => ⟨S16384x512x1, .f32⟩
  | .hbm, ⟨4, _⟩ => ⟨S_, .f32⟩
  | .hbm, ⟨5, _⟩ => ⟨S16384x512x2, .f32⟩
  | .hbm, ⟨6, _⟩ => ⟨S16384x512x2, .f32⟩
  | .hbm, ⟨7, _⟩ => ⟨S_, .f32⟩
  | .hbm, ⟨8, _⟩ => ⟨S16384x512x2, .f32⟩
  | .hbm, ⟨9, _⟩ => ⟨S16384x512x2, .f32⟩
  | .hbm, ⟨10, _⟩ => ⟨S16384x512x2, .f32⟩
  | .hbm, ⟨11, _⟩ => ⟨S16384x512x2, .f32⟩
  | .hbm, ⟨12, _⟩ => ⟨S16384x512x2, .f32⟩
  | .hbm, ⟨13, _⟩ => ⟨S16384x512x1, .f32⟩
  | .hbm, ⟨14, _⟩ => ⟨S_, .f32⟩
  | .hbm, ⟨15, _⟩ => ⟨S16384x512x2, .f32⟩
  | .hbm, ⟨16, _⟩ => ⟨S16384x512x2, .f32⟩
  | .hbm, ⟨17, _⟩ => ⟨S16384x512x2, .f32⟩
  | .hbm, ⟨18, _⟩ => ⟨S16384x512x2, .f32⟩
  | .hbm, ⟨19, _⟩ => ⟨S16384x512x2, .f32⟩
  | .hbm, ⟨20, _⟩ => ⟨S16384x512x2, .f32⟩
  | .hbm, ⟨21, _⟩ => ⟨S16384x512x1, .f32⟩
  | .hbm, ⟨22, _⟩ => ⟨S16384x512x2, .f32⟩
  | .hbm, ⟨23, _⟩ => ⟨S16384x512x2, .f32⟩
  | .hbm, ⟨24, _⟩ => ⟨S_, .f32⟩
  | .hbm, ⟨25, _⟩ => ⟨S2, .f32⟩
  | .hbm, ⟨26, _⟩ => ⟨S2, .f32⟩
  | .hbm, ⟨27, _⟩ => ⟨S_, .f32⟩
  | .hbm, ⟨28, _⟩ => ⟨S2, .f32⟩
  | .hbm, ⟨29, _⟩ => ⟨S2, .f32⟩
  | _, _ => ⟨S16384x512x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]

class Facts₀ : Prop where
  slices_S16384x512x2_S16384x512x1_0_0_0 : S16384x512x2.Slices ![0, 0, 0] S16384x512x1
  bcast_S_S16384x512x2 : S_.BroadcastsInDim S16384x512x2 (![] : Fin 0 → Fin S16384x512x2.rank)
  bcast_S16384x512x1_S16384x512x2_0_1_2 : S16384x512x1.BroadcastsInDim S16384x512x2 (![0, 1, 2] : Fin 3 → Fin S16384x512x2.rank)
  slices_S16384x512x2_S16384x512x1_0_0_1 : S16384x512x2.Slices ![0, 0, 1] S16384x512x1
  bcast_S16384x512_S16384x512x1_0_1 : S16384x512.BroadcastsInDim S16384x512x1 (![0, 1] : Fin 2 → Fin S16384x512x1.rank)
  reducesTo_S16384x512x2_S2_d0_1 : S16384x512x2.ReducesTo [0, 1] S2
  h_S_ : 0 < S_.numel
  bcast_S_S2 : S_.BroadcastsInDim S2 (![] : Fin 0 → Fin S2.rank)

variable [Facts₀]

class Facts : Prop extends Facts₀ where

variable [Facts]
-- ==== Proof.KernelCases.lean ====
/-
  What one run of the kernel body leaves behind, in each of its three control cases, as the body's own arithmetic.

  The body keeps a running [1, 2] accumulator in a scratch buffer that survives from one grid point to the next.
  At the first point it stores the zero row, reads it back and stores "that row plus this point's partial sums"; at
  every later point it stores "what the point before left, plus this point's partial sums"; at the last point it
  moreover reads the accumulator back and stores "(0 − accumulator) / 2²³" into the output block. The run records
  these stores as pieces; each piece list here is a single store covering the whole [1, 2] buffer (over, at the
  first point, the zero row's store), whose loads read whole buffers, so what is left is the store's value:

    first point   accumulator := step blocks zeroRow
    later points  accumulator := step blocks previous
    last point    output      := finish (step blocks previous)

  with `step` the accumulate payload, `zeroRow` the reset payload and `finish` the negate-and-divide payload.
  Valid at any float instance.
-/
import proofs.«120034_j73023033967188_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Cases

open Cert.KernelIdeal Cert.KernelIdeal.Gen

variable {F : FTy → Type} [FloatOps F]

theorem origin2 : (![0, 0] : Fin 2 → Nat) = fun _ => 0 := funext fun a => by fin_cases a <;> rfl
theorem origin3 : (![0, 0, 0] : Fin 3 → Nat) = fun _ => 0 := funext fun a => by fin_cases a <;> rfl

/-- A later point that is not the last: the accumulator ends at the accumulate step over what the point before left. -/
theorem acc_middle (c : Dev nD) (i : grid0.Coords) (a1 : Memref sig .tc .vmem S2048x512x2 .f32) (h1 : a1.IsWhole)
    (a2 : Memref sig .tc .vmem S2048x512x2 .f32) (h2 : a2.IsWhole) (a3 : Memref sig .tc .vmem S2048x512 .f32) (h3 : a3.IsWhole)
    (a4 : Memref sig .tc .vmem S1x2 .f32) (h4 : a4.IsWhole) (a5 : Memref sig .tc .vmem S1x2 .f32) (h5 : a5.IsWhole)
    (hc0 : ¬cond0_0 i) (hc1 : ¬cond0_1 i) (x0 x1 : Vec F S2048x512x2 .f32) (x2 : Vec F S2048x512 .f32) (xs : Vec F S1x2 .f32) :
    sout0_B_0 c i a1 h1 a2 h2 a3 h3 a4 h4 a5 h5 hc0 hc1 x0 x1 x2 xs = k0_pay2 x0 x1 x2 xs := by
  unfold sout0_B_0
  rw [View.read_writes_eq_canon _ _ _ (scover0_B_0 c i a1 h1 a2 h2 a3 h3 a4 h4 a5 h5 hc0 hc1 x0 x1 x2 xs)]
  unfold kernelRun0_B
  dsimp only
  rw [View.canon_unit_zero origin2]
  simp only [View.readAt_eq_ld, h1.read_unread, h2.read_unread, h3.read_unread, h5.read_unread,
    View.ld_unit_zero (S := S2048x512x2) origin3, View.ld_unit_zero (S := S2048x512) origin2,
    View.ld_unit_zero (S := S1x2) origin2]

/-- The first point: the accumulator ends at the accumulate step over the zero row just stored. -/
theorem acc_first (c : Dev nD) (i : grid0.Coords) (a1 : Memref sig .tc .vmem S2048x512x2 .f32) (h1 : a1.IsWhole)
    (a2 : Memref sig .tc .vmem S2048x512x2 .f32) (h2 : a2.IsWhole) (a3 : Memref sig .tc .vmem S2048x512 .f32) (h3 : a3.IsWhole)
    (a4 : Memref sig .tc .vmem S1x2 .f32) (h4 : a4.IsWhole) (a5 : Memref sig .tc .vmem S1x2 .f32) (h5 : a5.IsWhole)
    (hc0 : cond0_0 i) (hc1 : ¬cond0_1 i) (x0 x1 : Vec F S2048x512x2 .f32) (x2 : Vec F S2048x512 .f32) :
    sout0_A_0 c i a1 h1 a2 h2 a3 h3 a4 h4 a5 h5 hc0 hc1 x0 x1 x2 = k0_pay2 x0 x1 x2 k0_pay1 := by
  unfold sout0_A_0
  rw [View.read_writes_eq_canon _ _ _ (scover0_A_0 c i a1 h1 a2 h2 a3 h3 a4 h4 a5 h5 hc0 hc1 x0 x1 x2)]
  unfold kernelRun0_A
  dsimp only
  sl_unfold_words
  rw [View.canon_cons_unit_zero (S := S1x2) origin2, View.readCov_unit_zero (S := S1x2) _ origin2]
  simp only [View.readAt_eq_ld, h1.read_unread, h2.read_unread, h3.read_unread,
    View.ld_unit_zero (S := S2048x512x2) origin3, View.ld_unit_zero (S := S2048x512) origin2]

/-- The last point: the accumulator ends at the accumulate step over what the point before left, -/
theorem acc_last (c : Dev nD) (i : grid0.Coords) (a1 : Memref sig .tc .vmem S2048x512x2 .f32) (h1 : a1.IsWhole)
    (a2 : Memref sig .tc .vmem S2048x512x2 .f32) (h2 : a2.IsWhole) (a3 : Memref sig .tc .vmem S2048x512 .f32) (h3 : a3.IsWhole)
    (a4 : Memref sig .tc .vmem S1x2 .f32) (h4 : a4.IsWhole) (a5 : Memref sig .tc .vmem S1x2 .f32) (h5 : a5.IsWhole)
    (hc0 : ¬cond0_0 i) (hc1 : cond0_1 i) (x0 x1 : Vec F S2048x512x2 .f32) (x2 : Vec F S2048x512 .f32) (xs : Vec F S1x2 .f32) :
    sout0_C_0 c i a1 h1 a2 h2 a3 h3 a4 h4 a5 h5 hc0 hc1 x0 x1 x2 xs = k0_pay2 x0 x1 x2 xs := by
  unfold sout0_C_0
  rw [View.read_writes_eq_canon _ _ _ (scover0_C_0 c i a1 h1 a2 h2 a3 h3 a4 h4 a5 h5 hc0 hc1 x0 x1 x2 xs)]
  unfold kernelRun0_C
  dsimp only
  sl_unfold_words
  rw [View.canon_unit_zero origin2]
  simp only [View.readAt_eq_ld, h1.read_unread, h2.read_unread, h3.read_unread, h5.read_unread,
    View.ld_unit_zero (S := S2048x512x2) origin3, View.ld_unit_zero (S := S2048x512) origin2,
    View.ld_unit_zero (S := S1x2) origin2]

/-- and the output block at the negate-and-divide of that accumulator. -/
theorem out_last (c : Dev nD) (i : grid0.Coords) (a1 : Memref sig .tc .vmem S2048x512x2 .f32) (h1 : a1.IsWhole)
    (a2 : Memref sig .tc .vmem S2048x512x2 .f32) (h2 : a2.IsWhole) (a3 : Memref sig .tc .vmem S2048x512 .f32) (h3 : a3.IsWhole)
    (a4 : Memref sig .tc .vmem S1x2 .f32) (h4 : a4.IsWhole) (a5 : Memref sig .tc .vmem S1x2 .f32) (h5 : a5.IsWhole)
    (hc0 : ¬cond0_0 i) (hc1 : cond0_1 i) (x0 x1 : Vec F S2048x512x2 .f32) (x2 : Vec F S2048x512 .f32) (xs : Vec F S1x2 .f32) :
    out0_C_3 c i a1 h1 a2 h2 a3 h3 a4 h4 a5 h5 hc0 hc1 x0 x1 x2 xs = k0_pay3 (k0_pay2 x0 x1 x2 xs) := by
  unfold out0_C_3
  rw [View.read_writes_eq_canon _ _ _ (cover0_C_3 c i a1 h1 a2 h2 a3 h3 a4 h4 a5 h5 hc0 hc1 x0 x1 x2 xs)]
  unfold kernelRun0_C
  dsimp only
  sl_unfold_words
  rw [View.canon_unit_zero origin2, View.readCov_unit_zero (S := S1x2) _ origin2]
  simp only [View.readAt_eq_ld, h1.read_unread, h2.read_unread, h3.read_unread, h5.read_unread,
    View.ld_unit_zero (S := S2048x512x2) origin3, View.ld_unit_zero (S := S2048x512) origin2,
    View.ld_unit_zero (S := S1x2) origin2]

end Cert.KernelIdeal.Cases

end
-- ==== Proof.LibSumAxes.lean ====
/-
  Two re-indexings of finite sums, over any additive commutative monoid (the extended reals included: no
  finiteness is used).

  1. A reduction of a rank-3 array [A, B, C] over its two LEADING axes, into [C]: the sum over the source
     indices that drop to the result index `j` is the double sum over the two leading coordinates of the array
     at (a, b, j). Stated for any `drop` that keeps the last coordinate, and then for the vector
     `multi_reduction <add>` (no initial value) and the host's `reduce … add` (initial value first) at the
     ideal instance.
  2. A sum over the m·n rows of an array is the sum over m consecutive blocks of n rows each: row `n·i + b`
     is row `b` of block `i`.
-/
import Idealize.ShloMosaic.PureOps.Ideal.Laws
import Idealize.ShloMosaic.Lib.ValueIdx

namespace Cert.LibSumAxes

open Idealize.ShloMosaic Idealize.ShloMosaic.ValueIdx
open scoped BigOperators

variable {M : Type*} [AddCommMonoid M]

/-- The source indices of [A, B, C] whose last coordinate is `j`'s are exactly the (a, b, j): summing over them is
    the double sum over `a` and `b`. -/
theorem sum_filter_leading {A B C : ℕ} (drop : (⟨3, ![A, B, C]⟩ : Shape).Idx → (⟨1, ![C]⟩ : Shape).Idx)
    (hd : ∀ i, (drop i 0).val = (i 2).val) (x : (⟨3, ![A, B, C]⟩ : Shape).Idx → M) (j : (⟨1, ![C]⟩ : Shape).Idx)
    [DecidablePred fun i => drop i = j] :
    ∑ i ∈ Finset.univ.filter (fun i => drop i = j), x i = ∑ a : Fin A, ∑ b : Fin B, x (ix3 a b (j 0)) := by
  rw [← Finset.sum_product']
  symm
  refine Finset.sum_bij (fun p _ => ix3 p.1 p.2 (j 0)) ?_ ?_ ?_ ?_
  · intro p _
    rw [Finset.mem_filter]
    refine ⟨Finset.mem_univ _, ?_⟩
    funext d
    match d with
    | ⟨0, _⟩ => exact Fin.ext (hd _)
  · intro p _ q _ h
    exact Prod.ext (congrFun h 0) (congrFun h 1)
  · intro i hi
    rw [Finset.mem_filter] at hi
    refine ⟨(i 0, i 1), Finset.mem_product.mpr ⟨Finset.mem_univ _, Finset.mem_univ _⟩, ?_⟩
    have h2 : j 0 = i 2 := by rw [← hi.2]; exact Fin.ext (hd i)
    rw [h2]
    exact (eq_ix3 i).symm
  · intro p _
    rfl

/-- A float `vector.multi_reduction <add>` of [A, B, C] over its two leading axes, read at the ideal instance. -/
theorem multiReduction_add_leading {φ : FTy} {A B C : ℕ} {axes : List (Fin (⟨3, ![A, B, C]⟩ : Shape).rank)}
    (src : FVec Ideal (⟨3, ![A, B, C]⟩ : Shape) φ) (acc : BitVec φ.bits)
    (h : (⟨3, ![A, B, C]⟩ : Shape).Reduces axes (⟨1, ![C]⟩ : Shape)) (hφ : FKind.Formats φ)
    (hacc : acc = FKind.add.neutral φ hφ) (hd : ∀ i, (h.drop i 0).val = (i 2).val) (j : (⟨1, ![C]⟩ : Shape).Idx) :
    multiReduction .add axes (⟨1, ![C]⟩ : Shape) src acc h hφ hacc j = ∑ a : Fin A, ∑ b : Fin B, src (ix3 a b (j 0)) :=
  sum_filter_leading h.drop hd src j

/-- The host's `stablehlo.reduce … add` of [A, B, C] over its two leading axes, read at the ideal instance: the
    initial value, then the double sum. -/
theorem hostReduceAdd_leading {A B C : ℕ} {axes : List (Fin (⟨3, ![A, B, C]⟩ : Shape).rank)}
    (h : (⟨3, ![A, B, C]⟩ : Shape).ReducesTo axes (⟨1, ![C]⟩ : Shape)) (x : (⟨3, ![A, B, C]⟩ : Shape).Idx → EReal)
    (init : EReal) (hd : ∀ i, (h.drop i 0).val = (i 2).val) (j : (⟨1, ![C]⟩ : Shape).Idx) :
    Ideal.hostReduceAdd h x init j = init + ∑ a : Fin A, ∑ b : Fin B, x (ix3 a b (j 0)) := by
  unfold Ideal.hostReduceAdd
  rw [sum_filter_leading h.drop hd x j]

/-- Row `b` of block `i`, of `m` blocks of `n` rows. -/
def blockRow {m n : ℕ} (i : Fin m) (b : Fin n) : Fin (m * n) :=
  ⟨n * i.val + b.val, by
    have hi := i.isLt; have hb := b.isLt
    calc n * i.val + b.val < n * i.val + n := by omega
      _ = n * (i.val + 1) := by ring
      _ ≤ n * m := Nat.mul_le_mul_left n hi
      _ = m * n := Nat.mul_comm n m⟩

/-- A sum over all m·n rows is the sum over the blocks of the sums over each block's rows. -/
theorem sum_blockRow (m n : ℕ) (f : Fin (m * n) → M) : ∑ r : Fin (m * n), f r = ∑ i : Fin m, ∑ b : Fin n, f (blockRow i b) := by
  rw [← (finProdFinEquiv (m := m) (n := n)).sum_comp f, Fintype.sum_prod_type]
  refine Finset.sum_congr rfl fun i _ => Finset.sum_congr rfl fun b _ => congrArg f (Fin.ext ?_)
  show b.val + n * i.val = n * i.val + b.val
  omega

end Cert.LibSumAxes
-- ==== Proof.LossSpec.lean ====
/-
  The function both programs compute, on the extended reals.

  For predictions `o[r, t, v]` and targets `y[r, t, ·]` over 16384 rows, 512 steps and 2 channels, and weights
  `w[r, t]`, one element contributes

      cell = (y[r,t,0] · log((1 − o[r,t,v]) + ε) + y[r,t,1] · log(o[r,t,v] + ε)) · w[r,t]

  (ε the f32 nearest 1e-8, the same binary word in both programs, never evaluated), and channel `v` of the result is

      loss v = (−(Σ over all r and t of cell)) / 2²³ .

  One program sums all 16384 rows at once; the other takes them in 8 consecutive blocks of 2048 rows and adds the
  blocks' sums. `total_eq_sum_blocks` says these are the same sum: only commutativity and associativity of `+` are
  used, which hold at the infinities too, so no finiteness of the inputs is needed.
-/
import proofs.«120034_j73023033967188_1_alg».proof.Proof.LibSumAxes

noncomputable section

namespace Cert.LossSpec

open Idealize.ShloMosaic Idealize.ShloMosaic.ValueIdx
open scoped BigOperators

/-- One element's contribution, from the prediction, the two target channels and the weight. -/
def cell (o y0 y1 w : EReal) : EReal :=
  (y0 * Ideal.log ((Ideal.ofBits .f32 0x3F800000#32 - o) + Ideal.ofBits .f32 0x322BCC77#32)
    + y1 * Ideal.log (o + Ideal.ofBits .f32 0x322BCC77#32)) * w

/-- Channel `v`'s sum of the contributions over `R` rows and all 512 steps. -/
def rowsSum {R : ℕ} (o y : (⟨3, ![R, 512, 2]⟩ : Shape).Idx → EReal) (w : (⟨2, ![R, 512]⟩ : Shape).Idx → EReal)
    (v : Fin 2) : EReal :=
  ∑ r : Fin R, ∑ t : Fin 512, cell (o (ix3 r t v)) (y (ix3 r t 0)) (y (ix3 r t 1)) (w (ix2 r t))

/-- The result: the negated total over all rows, divided by 2²³ = 16384 · 512. -/
def loss (o y : (⟨3, ![16384, 512, 2]⟩ : Shape).Idx → EReal) (w : (⟨2, ![16384, 512]⟩ : Shape).Idx → EReal) :
    (⟨1, ![2]⟩ : Shape).Idx → EReal :=
  fun j => Ideal.div (-(rowsSum o y w (j 0))) (Ideal.ofBits .f32 0x4B000000#32)

/-- Row `b` of block `i` of the 8 blocks of 2048 rows: row `2048·i + b` of the whole array. -/
def row (i : Fin 8) (b : Fin 2048) : Fin 16384 := ⟨2048 * i.val + b.val, by omega⟩

/-- Channel `v`'s sum of the contributions over block `i`'s rows. -/
def blockSum (o y : (⟨3, ![16384, 512, 2]⟩ : Shape).Idx → EReal) (w : (⟨2, ![16384, 512]⟩ : Shape).Idx → EReal)
    (i : Fin 8) (v : Fin 2) : EReal :=
  ∑ b : Fin 2048, ∑ t : Fin 512,
    cell (o (ix3 (row i b) t v)) (y (ix3 (row i b) t 0)) (y (ix3 (row i b) t 1)) (w (ix2 (row i b) t))

/-- The total over all rows is the sum of the eight blocks' sums. -/
theorem total_eq_sum_blocks (o y : (⟨3, ![16384, 512, 2]⟩ : Shape).Idx → EReal)
    (w : (⟨2, ![16384, 512]⟩ : Shape).Idx → EReal) (v : Fin 2) :
    rowsSum o y w v = ∑ i : Fin 8, blockSum o y w i v :=
  LibSumAxes.sum_blockRow 8 2048
    (fun r : Fin (8 * 2048) => ∑ t : Fin 512, cell (o (ix3 r t v)) (y (ix3 r t 0)) (y (ix3 r t 1)) (w (ix2 r t)))

end Cert.LossSpec

end
-- ==== Proof.LibTrailingUnit.lean ====
/-
  Layout operations on a TRAILING unit axis, read at an index with explicit coordinates: what a kernel meets when
  it slices one channel `[a, b, c] → [a, b, 1]`, gives a matrix a trailing axis `[a, b] → [a, b, 1]`, and repeats a
  `[a, b, 1]` array along the last axis `[a, b, 1] → [a, b, c]` (the "keep the reduced axis" forms on the last axis).
  Each reads the operand at the same leading coordinates.
-/
import Idealize.ShloMosaic.Lib.Pipeline.Value
import Idealize.ShloMosaic.Lib.ValueIdx

namespace Cert.LibTrailingUnit

open Idealize.ShloMosaic Idealize.ShloMosaic.ValueIdx

variable {α : Type}

/-- Channel `k` of `[a, b, c]` sliced out as `[a, b, 1]` reads, at `(r, t, u)`, the operand at `(r, t, k)`. -/
theorem slice_channel_apply {a b c : ℕ} (k : ℕ) (x : (⟨3, ![a, b, c]⟩ : Shape).Idx → α)
    (h : (⟨3, ![a, b, c]⟩ : Shape).Slices ![0, 0, k] ⟨3, ![a, b, 1]⟩) (r : Fin a) (t : Fin b) (u : Fin 1) (v : Fin c)
    (hv : v.val = k) : extractStridedSlice ⟨3, ![a, b, 1]⟩ ![0, 0, k] x h (ix3 r t u) = x (ix3 r t v) :=
  extractStridedSlice_apply _ x h _ _ (fun d => match d with
    | ⟨0, _⟩ => by show r.val = 0 + r.val; omega
    | ⟨1, _⟩ => by show t.val = 0 + t.val; omega
    | ⟨2, _⟩ => by show v.val = k + u.val; omega)

/-- An `[a, b]` array cast to `[a, b, 1]` reads, at `(r, t, u)`, the operand at `(r, t)`. -/
theorem shapeCast_ab_ab1_apply {a b : ℕ} (x : (⟨2, ![a, b]⟩ : Shape).Idx → α)
    (h : (⟨2, ![a, b]⟩ : Shape).ShapeCasts ⟨3, ![a, b, 1]⟩) (r : Fin a) (t : Fin b) (u : Fin 1) :
    shapeCast ⟨3, ![a, b, 1]⟩ x h (ix3 r t u) = x (ix2 r t) :=
  shapeCast_apply x h _ _ (by
    have hu : u.val = 0 := by omega
    rw [Shape.rowMajor_val_two, Shape.rowMajor_val_three]
    show r.val * b + t.val = (r.val * b + t.val) * 1 + u.val
    rw [hu, Nat.mul_one, Nat.add_zero])

/-- An `[a, b, 1]` array repeated along the last axis to `[a, b, c]` reads, at `(r, t, v)`, the operand at `(r, t, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (r : Fin a) (t : Fin b) (v : Fin c) :
    broadcastTo ⟨3, ![a, b, c]⟩ x h (ix3 r t v) = x (ix3 r t (0 : Fin 1)) :=
  broadcastTo_apply x h _ _ (fun d => match d with
    | ⟨0, _⟩ => by
        show r.val = if a = 1 then 0 else r.val
        split_ifs with h1
        · have := r.isLt; omega
        · rfl
    | ⟨1, _⟩ => by
        show t.val = if b = 1 then 0 else t.val
        split_ifs with h1
        · have := t.isLt; omega
        · rfl
    | ⟨2, _⟩ => by
        show (0 : ℕ) = if (1 : ℕ) = 1 then 0 else v.val
        rw [if_pos rfl])

end Cert.LibTrailingUnit
-- ==== Proof.KernelPayload.lean ====
/-
  The kernel body's three stored values, read at an index, on the extended reals.

    reset     the zero row:                                  0 at every index;
    step      accumulate: channel v of the new accumulator = channel v of the old one
              + Σ over the block's 2048 rows and 512 steps of the element's contribution
              (the two target channels are the block's slices [·, ·, 0:1] and [·, ·, 1:2] repeated along the channel
              axis, the weight the [2048, 512] block given a trailing axis and repeated likewise; the sum is the
              vector reduction over the two leading axes, whose neutral initial value contributes nothing);
    finish    (0 − accumulator) / 2²³ at every index.
-/
import proofs.«120034_j73023033967188_1_alg».proof.Proof.Gen.KernelIdeal.Skeleton
import proofs.«120034_j73023033967188_1_alg».proof.Proof.LossSpec
import proofs.«120034_j73023033967188_1_alg».proof.Proof.LibTrailingUnit
import Idealize.ShloMosaic.Lib.ValueLayout

noncomputable section

open Idealize.ShloMosaic Idealize.ShloMosaic.ValueIdx

namespace Cert.KernelIdeal.Payload

open Cert.KernelIdeal Cert.KernelIdeal.Gen Cert.LossSpec
open scoped BigOperators

/-- The reset row is zero everywhere. -/
theorem reset_apply (j : S1x2.Idx) : k0_pay1 (F := Ideal) j = 0 := by
  unfold k0_pay1
  rw [shapeCast_self]
  exact Ideal.ofBits_zero_f32

/-- The elementwise value the body sums, at row `r`, step `t`, channel `v` of the block. -/
theorem summand_apply (x0 x1 : FVec Ideal S2048x512x2 .f32) (x2 : FVec Ideal S2048x512 .f32)
    (h0 : S2048x512x2.Slices ![0, 0, 0] S2048x512x1) (h1 : S2048x512x2.Slices ![0, 0, 1] S2048x512x1)
    (hb : S2048x512x1.Broadcasts S2048x512x2) (hs : S2048x512.ShapeCasts S2048x512x1)
    (r : Fin 2048) (t : Fin 512) (v : Fin 2) :
    mulf (addf
        (mulf (broadcastTo S2048x512x2 (extractStridedSlice S2048x512x1 ![0, 0, 0] x1 h0) hb)
          (log (addf (subf (broadcast S2048x512x2 (Scalar.ofBits .f32 0x3F800000#32)) x0)
            (broadcast S2048x512x2 (Scalar.ofBits .f32 0x322BCC77#32)))))
        (mulf (broadcastTo S2048x512x2 (extractStridedSlice S2048x512x1 ![0, 0, 1] x1 h1) hb)
          (log (addf x0 (broadcast S2048x512x2 (Scalar.ofBits .f32 0x322BCC77#32))))))
      (broadcastTo S2048x512x2 (shapeCast S2048x512x1 x2 hs) hb) (ix3 r t v)
    = cell (x0 (ix3 r t v)) (x1 (ix3 r t 0)) (x1 (ix3 r t 1)) (x2 (ix2 r t)) := by
  have e0 : broadcastTo S2048x512x2 (extractStridedSlice S2048x512x1 ![0, 0, 0] x1 h0) hb (ix3 r t v) = x1 (ix3 r t 0) :=
    (LibTrailingUnit.broadcastTo_ab1_abc_apply _ hb r t v).trans
      (LibTrailingUnit.slice_channel_apply 0 x1 h0 r t 0 0 rfl)
  have e1 : broadcastTo S2048x512x2 (extractStridedSlice S2048x512x1 ![0, 0, 1] x1 h1) hb (ix3 r t v) = x1 (ix3 r t 1) :=
    (LibTrailingUnit.broadcastTo_ab1_abc_apply _ hb r t v).trans
      (LibTrailingUnit.slice_channel_apply 1 x1 h1 r t 0 1 rfl)
  have e2 : broadcastTo S2048x512x2 (shapeCast S2048x512x1 x2 hs) hb (ix3 r t v) = x2 (ix2 r t) :=
    (LibTrailingUnit.broadcastTo_ab1_abc_apply _ hb r t v).trans
      (LibTrailingUnit.shapeCast_ab_ab1_apply x2 hs r t 0)
  show (broadcastTo S2048x512x2 (extractStridedSlice S2048x512x1 ![0, 0, 0] x1 h0) hb (ix3 r t v)
        * Ideal.log ((Ideal.ofBits .f32 0x3F800000#32 - x0 (ix3 r t v)) + Ideal.ofBits .f32 0x322BCC77#32)
      + broadcastTo S2048x512x2 (extractStridedSlice S2048x512x1 ![0, 0, 1] x1 h1) hb (ix3 r t v)
        * Ideal.log (x0 (ix3 r t v) + Ideal.ofBits .f32 0x322BCC77#32))
      * broadcastTo S2048x512x2 (shapeCast S2048x512x1 x2 hs) hb (ix3 r t v) = _
  rw [e0, e1, e2]
  rfl

/-- The vector reduction over the block's rows and steps keeps the channel coordinate. -/
theorem reduce_keeps_channel (h : S2048x512x2.Reduces [0, 1] S2) (i : S2048x512x2.Idx) : (h.drop i 0).val = (i 2).val :=
  Shape.Reduces.drop_apply_val_of_eq h i 0 2

/-- The accumulate step, channel by channel. -/
theorem step_apply (x0 x1 : FVec Ideal S2048x512x2 .f32) (x2 : FVec Ideal S2048x512 .f32) (xs : FVec Ideal S1x2 .f32)
    (u : Fin 1) (v : Fin 2) :
    k0_pay2 (F := Ideal) x0 x1 x2 xs (ix2 u v) = xs (ix2 0 v) + rowsSum x0 x1 x2 v := by
  unfold k0_pay2
  refine (ValueIdx.shapeCast_a_1a_apply _ _ u v).trans ?_
  refine congrArg₂ (· + ·) (ValueIdx.shapeCast_1a_a_apply xs _ v)
    ((LibSumAxes.multiReduction_add_leading _ _ _ _ _ (reduce_keeps_channel _) (ix1 v)).trans ?_)
  unfold rowsSum
  exact Finset.sum_congr rfl fun r _ => Finset.sum_congr rfl fun t _ => summand_apply x0 x1 x2 _ _ _ _ r t v

/-- The last point's output: the accumulator negated (as `0 − ·`) and divided by 2²³. -/
theorem finish_apply (xs : FVec Ideal S1x2 .f32) (j : S1x2.Idx) :
    k0_pay3 (F := Ideal) xs j = Ideal.div (-(xs j)) (Ideal.ofBits .f32 0x4B000000#32) := by
  unfold k0_pay3
  show Ideal.div (Ideal.ofBits .f32 0x00000000#32 - xs j) (Ideal.ofBits .f32 0x4B000000#32) = _
  rw [Ideal.ofBits_zero_f32, zero_sub]

end Cert.KernelIdeal.Payload

end
-- ==== Proof.LibRunTotal.lean ====
/-
  A running total built by recursion — zero plus the first term at the first index, the previous total plus the
  next term afterwards — is the finite sum of the terms so far; at the last index it is the sum of all terms. Over an
  arbitrary additive commutative monoid.
-/
import Mathlib.Algebra.BigOperators.Fin

namespace Cert.LibRunTotal

open scoped BigOperators

variable {M : Type*} [AddCommMonoid M]

/-- The running total of `f` up to and including index `n`: reset to zero and add at the first index, add at each later one. -/
def runTotal {N : ℕ} (f : Fin N → M) : (n : ℕ) → n < N → M
  | 0, h => 0 + f ⟨0, h⟩
  | n + 1, h => runTotal f n (Nat.lt_of_succ_lt h) + f ⟨n + 1, h⟩

/-- The running total up to `n` is the sum of the first `n + 1` terms. -/
theorem runTotal_eq_sum {N : ℕ} (f : Fin N → M) :
    ∀ (n : ℕ) (h : n < N), runTotal f n h = ∑ i : Fin (n + 1), f ⟨i.val, by omega⟩
  | 0, h => by simp [runTotal]
  | n + 1, h => by
    rw [runTotal, runTotal_eq_sum f n]
    exact (Fin.sum_univ_castSucc (fun i : Fin (n + 1 + 1) => f ⟨i.val, by omega⟩)).symm

/-- At the last index the running total is the sum of all terms. -/
theorem runTotal_last {N n : ℕ} (hN : N = n + 1) (f : Fin N → M) (h : n < N) : runTotal f n h = ∑ i : Fin N, f i := by
  subst hN
  rw [runTotal_eq_sum]

end Cert.LibRunTotal
-- ==== Proof.KernelTotal.lean ====
/-
  The accumulator after each grid point is the running total of the points' partial sums, and the output block at the
  last point is that total negated and divided by 2²³.

  Point `t`'s partial sums `pointSum t v` are the sums, over the 2048 rows and 512 steps of the three input blocks the
  pipeline hands the body at `t`, of the element contributions for channel `v`. The body's three control cases give

      accumulator after point 0      = step (blocks at 0) zeroRow
      accumulator after point t > 0  = step (blocks at t) (accumulator after point t − 1)
      output block at the last point = finish (accumulator after the last point)

  so, channel by channel, the accumulator after point `n` is "0 + pointSum 0" and then "+ pointSum t" for each later
  point: by induction on the point it is the running total, which at the last of the 8 points is the sum over all points.
-/
import proofs.«120034_j73023033967188_1_alg».proof.Proof.KernelCases
import proofs.«120034_j73023033967188_1_alg».proof.Proof.KernelPayload
import proofs.«120034_j73023033967188_1_alg».proof.Proof.LibRunTotal

noncomputable section

open Idealize.ShloMosaic Idealize.ShloMosaic.TcCoe Idealize.ShloMosaic.ValueIdx Idealize.SL.Sem

namespace Cert.KernelIdeal.Total

open Cert.KernelIdeal Cert.KernelIdeal.Gen Cert.LossSpec
open scoped BigOperators

section AnyInstance

variable {F : FTy → Type} [FloatOps F]
variable (m : (ℓ : Loc nD τ sig) → Buf (Elt F) ℓ)

/-- What the point before `t` left in the accumulator. -/
abbrev before (c : Dev nD) (t : Fin cfg0.N) : Vec F S1x2 .f32 :=
  (outsAt0 m c (t.val - 1) (Nat.lt_of_le_of_lt (Nat.sub_le _ _) t.isLt)).2

/-- After the first point: the accumulate step over the zero row. -/
theorem acc_at_first (c : Dev nD) (t : Fin cfg0.N) (h0 : t.val % 8 = 0) (h1 : ¬t.val % 8 = 7) :
    (outsAt0 m c t.val t.isLt).2 = k0_pay2 (iblk m c 0 t) (iblk m c 1 t) (iblk m c 2 t) k0_pay1 := by
  rw [outsAt0_A m c t h0 h1]
  exact Cases.acc_first c (grid0.coords t) (ms0_0 t) (hs0_0 t) (ms0_1 t) (hs0_1 t) (ms0_2 t) (hs0_2 t) (ms0_3 t) (hs0_3 t)
    scM0_0 (Memref.isWhole_whole _) ((hcond0_0 t).mpr h0) (fun h => h1 ((hcond0_1 t).mp h))
    (iblk m c 0 t) (iblk m c 1 t) (iblk m c 2 t)

/-- After a later point: the accumulate step over what the point before left. -/
theorem acc_at_later (c : Dev nD) (t : Fin cfg0.N) (h0 : ¬t.val % 8 = 0) :
    (outsAt0 m c t.val t.isLt).2 = k0_pay2 (iblk m c 0 t) (iblk m c 1 t) (iblk m c 2 t) (before m c t) := by
  by_cases h1 : t.val % 8 = 7
  · rw [outsAt0_C m c t h0 h1]
    exact Cases.acc_last c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h1)
      (iblk m c 0 t) (iblk m c 1 t) (iblk m c 2 t) (before m c t)
  · rw [outsAt0_B m c t h0 h1]
    exact Cases.acc_middle c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) (fun h => h1 ((hcond0_1 t).mp h))
      (iblk m c 0 t) (iblk m c 1 t) (iblk m c 2 t) (before m c t)

/-- At the last point the output block is the finish of that point's accumulator. -/
theorem out_at_last (c : Dev nD) (t : Fin cfg0.N) (h0 : ¬t.val % 8 = 0) (h1 : t.val % 8 = 7) :
    (outsAt0 m c t.val t.isLt).1 = k0_pay3 (k0_pay2 (iblk m c 0 t) (iblk m c 1 t) (iblk m c 2 t) (before m c t)) := by
  rw [outsAt0_C m c t h0 h1]
  exact Cases.out_last c (grid0.coords t) (ms0_0 t) (hs0_0 t) (ms0_1 t) (hs0_1 t) (ms0_2 t) (hs0_2 t) (ms0_3 t) (hs0_3 t)
    scM0_0 (Memref.isWhole_whole _) (fun h => h0 ((hcond0_0 t).mp h)) ((hcond0_1 t).mpr h1)
    (iblk m c 0 t) (iblk m c 1 t) (iblk m c 2 t) (before m c t)

end AnyInstance

variable (m : (ℓ : Loc nD τ sig) → Buf (Elt Ideal) ℓ)

/-- Point `t`'s partial sums for channel `v`, from the three blocks the body is handed there. -/
def pointSum (c : Dev nD) (t : Fin cfg0.N) (v : Fin 2) : EReal :=
  rowsSum (R := 2048) (iblk m c 0 t) (iblk m c 1 t) (iblk m c 2 t) v

/-- The accumulator after point `n`, channel `v`, is the running total of the partial sums up to `n`. -/
theorem acc_eq_runTotal (c : Dev nD) : ∀ (n : ℕ) (h : n < cfg0.N) (u : Fin 1) (v : Fin 2),
    (outsAt0 m c n h).2 (ix2 u v) = LibRunTotal.runTotal (fun t : Fin cfg0.N => pointSum m c t v) n h
  | 0, h, u, v => by
    refine (congrFun (acc_at_first m c ⟨0, h⟩ rfl (show ¬(0 : ℕ) % 8 = 7 by decide)) (ix2 u v)).trans ?_
    refine (Payload.step_apply (iblk m c 0 ⟨0, h⟩) (iblk m c 1 ⟨0, h⟩) (iblk m c 2 ⟨0, h⟩) k0_pay1 u v).trans ?_
    rw [Payload.reset_apply]
    rfl
  | n + 1, h, u, v => by
    have hN : cfg0.N = 8 := N_0
    have h0 : ¬(⟨n + 1, h⟩ : Fin cfg0.N).val % 8 = 0 := by dsimp only; omega
    refine (congrFun (acc_at_later m c ⟨n + 1, h⟩ h0) (ix2 u v)).trans ?_
    refine (Payload.step_apply (iblk m c 0 ⟨n + 1, h⟩) (iblk m c 1 ⟨n + 1, h⟩) (iblk m c 2 ⟨n + 1, h⟩)
      (before m c ⟨n + 1, h⟩) u v).trans ?_
    show (outsAt0 m c n (Nat.lt_of_succ_lt h)).2 (ix2 0 v) + pointSum m c ⟨n + 1, h⟩ v
      = LibRunTotal.runTotal (fun t : Fin cfg0.N => pointSum m c t v) n (Nat.lt_of_succ_lt h) + pointSum m c ⟨n + 1, h⟩ v
    rw [acc_eq_runTotal c n (Nat.lt_of_succ_lt h) 0 v]

/-- The last point, as a point of the grid. -/
abbrev lastPoint : Fin cfg0.N := ⟨7, by rw [show cfg0.N = 8 from N_0]; decide⟩

/-- The output block after the last point: channel `v` is the negated sum of all eight points' partial sums over 2²³. -/
theorem out_last_apply (c : Dev nD) (u : Fin 1) (v : Fin 2) :
    (outsAt0 m c lastPoint.val lastPoint.isLt).1 (ix2 u v)
      = Ideal.div (-(∑ t : Fin cfg0.N, pointSum m c t v)) (Ideal.ofBits .f32 0x4B000000#32) := by
  have h0 : ¬(lastPoint : Fin cfg0.N).val % 8 = 0 := by decide
  have h1 : (lastPoint : Fin cfg0.N).val % 8 = 7 := by decide
  refine (congrFun (out_at_last m c lastPoint h0 h1) (ix2 u v)).trans ?_
  refine (Payload.finish_apply _ (ix2 u v)).trans ?_
  rw [← acc_at_later m c lastPoint h0, acc_eq_runTotal m c 7 lastPoint.isLt u v,
    LibRunTotal.runTotal_last (show cfg0.N = 7 + 1 from N_0)]

end Cert.KernelIdeal.Total

end
-- ==== Proof.KernelBlocks.lean ====
/-
  The blocks the body is handed at point `t` are rows 2048·t … 2048·t + 2047 of the argument arrays, so the eight
  points' partial sums are the eight blocks' sums of the whole arrays, and they add up to the sum over all 16384 rows.

  Each input window's index map sends point `t` to block `(t, 0, 0)` (or `(t, 0)` for the weights), so element
  `(b, s, v)` of the block sits at `(t · 2048 + b, s, v)` of the array as the region finds it.
-/
import proofs.«120034_j73023033967188_1_alg».proof.Proof.KernelTotal

noncomputable section

open Idealize.ShloMosaic Idealize.ShloMosaic.TcCoe Idealize.ShloMosaic.ValueIdx Idealize.SL.Sem

namespace Cert.KernelIdeal.Blocks

open Cert.KernelIdeal Cert.KernelIdeal.Gen Cert.LossSpec
open scoped BigOperators

/-- The three input windows' block indices at every point: the point's number on the row axis, zero elsewhere. -/
theorem index_outputs : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem index_targets : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem index_weights : ∀ t : Fin cfg0.N, win0_2.index t 0 = t.val ∧ win0_2.index t 1 = 0 :=
  (by decide +kernel : ∀ t : Fin grid0.N, win0_2.index t 0 = t.val ∧ win0_2.index t 1 = 0)

section AnyInstance

variable {F : FTy → Type} [FloatOps F]
variable (m : (ℓ : Loc nD τ sig) → Buf (Elt F) ℓ)

/-- The predictions' block at point `t`, element `(b, s, v)`: the array at row `2048·t + b`. -/
theorem outputs_block_apply (c : Dev nD) (t : Fin cfg0.N) (b : Fin 2048) (s : Fin 512) (v : Fin 2) :
    (iblk m c 0 t : Vec F S2048x512x2 .f32) (ix3 b s v) = V m c main_arg0 (ix3 (row (Fin.cast N_0 t) b) s v) := by
  unfold iblk
  rw [View.read_apply]
  show V m c main_arg0 _ = V m c main_arg0 _
  congr 1
  funext a
  apply Fin.ext
  match a with
  | ⟨0, _⟩ => show win0_0.index t 0 * 2048 + 1 * b.val = 2048 * t.val + b.val; rw [(index_outputs t).1]; omega
  | ⟨1, _⟩ => show win0_0.index t 1 * 512 + 1 * s.val = s.val; rw [(index_outputs t).2.1]; omega
  | ⟨2, _⟩ => show win0_0.index t 2 * 2 + 1 * v.val = v.val; rw [(index_outputs t).2.2]; omega

/-- The targets' block likewise. -/
theorem targets_block_apply (c : Dev nD) (t : Fin cfg0.N) (b : Fin 2048) (s : Fin 512) (v : Fin 2) :
    (iblk m c 1 t : Vec F S2048x512x2 .f32) (ix3 b s v) = V m c main_arg1 (ix3 (row (Fin.cast N_0 t) b) s v) := by
  unfold iblk
  rw [View.read_apply]
  show V m c main_arg1 _ = V m c main_arg1 _
  congr 1
  funext a
  apply Fin.ext
  match a with
  | ⟨0, _⟩ => show win0_1.index t 0 * 2048 + 1 * b.val = 2048 * t.val + b.val; rw [(index_targets t).1]; omega
  | ⟨1, _⟩ => show win0_1.index t 1 * 512 + 1 * s.val = s.val; rw [(index_targets t).2.1]; omega
  | ⟨2, _⟩ => show win0_1.index t 2 * 2 + 1 * v.val = v.val; rw [(index_targets t).2.2]; omega

/-- The weights' block: element `(b, s)` is the array at row `2048·t + b`. -/
theorem weights_block_apply (c : Dev nD) (t : Fin cfg0.N) (b : Fin 2048) (s : Fin 512) :
    (iblk m c 2 t : Vec F S2048x512 .f32) (ix2 b s) = V m c main_arg2 (ix2 (row (Fin.cast N_0 t) b) s) := by
  unfold iblk
  rw [View.read_apply]
  show V m c main_arg2 _ = V m c main_arg2 _
  congr 1
  funext a
  apply Fin.ext
  match a with
  | ⟨0, _⟩ => show win0_2.index t 0 * 2048 + 1 * b.val = 2048 * t.val + b.val; rw [(index_weights t).1]; omega
  | ⟨1, _⟩ => show win0_2.index t 1 * 512 + 1 * s.val = s.val; rw [(index_weights t).2]; omega

end AnyInstance

variable (m : (ℓ : Loc nD τ sig) → Buf (Elt Ideal) ℓ)

/-- Point `t`'s partial sums are block `t`'s sums of the whole argument arrays. -/
theorem pointSum_eq_blockSum (c : Dev nD) (t : Fin cfg0.N) (v : Fin 2) :
    Total.pointSum m c t v = blockSum (V m c main_arg0) (V m c main_arg1) (V m c main_arg2) (Fin.cast N_0 t) v := by
  unfold Total.pointSum rowsSum blockSum
  refine Finset.sum_congr rfl fun b _ => Finset.sum_congr rfl fun s _ => ?_
  rw [outputs_block_apply m c t b s v, targets_block_apply m c t b s 0, targets_block_apply m c t b s 1,
    weights_block_apply m c t b s]

/-- The eight points' partial sums add up to the sum over all rows of the argument arrays. -/
theorem sum_points (c : Dev nD) (v : Fin 2) :
    ∑ t : Fin cfg0.N, Total.pointSum m c t v = rowsSum (R := 16384) (V m c main_arg0) (V m c main_arg1) (V m c main_arg2) v := by
  rw [total_eq_sum_blocks]
  rw [← Fin.sum_congr' (fun i : Fin 8 => blockSum (V m c main_arg0) (V m c main_arg1) (V m c main_arg2) i v) N_0]
  exact Finset.sum_congr rfl fun t _ => pointSum_eq_blockSum m c t v

end Cert.KernelIdeal.Blocks

end
-- ==== Proof.KernelFinal.lean ====
/-
  The kernel's result, as one function of the argument arrays.

  The output window is a single [1, 2] block whose index never moves; the pipeline writes it back to its array once,
  after the last grid point, and every index of the [1, 2] array lies in that block. What the body left there is the
  loss (the negated sum of all eight points' partial sums, which is the sum over all 16384 rows, divided by 2²³) laid
  out as a [1, 2] row; so the array ends at that row, and the host line after the region, which drops the leading
  unit axis, leaves the [2] vector `loss` of the arguments in the result buffer. The argument arrays are never
  written.
-/
import proofs.«120034_j73023033967188_1_alg».proof.Proof.KernelBlocks

noncomputable section

open Idealize.ShloMosaic Idealize.ShloMosaic.TcCoe Idealize.ShloMosaic.ValueIdx Idealize.SL.Sem
open Idealize.ShloMosaic.Pipeline (Dat)

namespace Cert.KernelIdeal.Final

open Cert.KernelIdeal Cert.KernelIdeal.Gen Cert.LossSpec
open scoped BigOperators

variable (m : (ℓ : Loc nD τ sig) → Buf (Elt Ideal) ℓ) (ρ : Dev nD → PrngReg)

/-- The loss of the argument arrays as the region finds them. -/
abbrev lossOf (c : Dev nD) : S2.Idx → EReal :=
  loss (V m c main_arg0) (V m c main_arg1) (V m c main_arg2)

/-- The same as a [1, 2] row: what the output's array ends holding. -/
def row (c : Dev nD) : Buf (Elt Ideal) ((c : Thread nD τ).loc main_v0) :=
  shapeCast S1x2 (lossOf m c) Cert.KernelIdeal.Gen.shapeCasts_S2_S1x2

/-- What the body leaves in the output block at the last point is that row. -/
theorem out_last_eq_row (c : Dev nD) : (outsAt0 m c Total.lastPoint.val Total.lastPoint.isLt).1 = row m c := by
  funext y
  obtain ⟨u, v, rfl⟩ : ∃ (u : Fin 1) (v : Fin 2), y = ix2 u v := ⟨y 0, y 1, eq_ix2 y⟩
  rw [Total.out_last_apply, Blocks.sum_points]
  exact (ValueIdx.shapeCast_a_1a_apply (lossOf m c) Cert.KernelIdeal.Gen.shapeCasts_S2_S1x2 u v).symm

/-- The output window's block index is (0, 0) at every point. -/
theorem index_result : ∀ t : Fin cfg0.N, win0_3.index t 0 = 0 ∧ win0_3.index t 1 = 0 :=
  (by decide +kernel : ∀ t : Fin grid0.N, win0_3.index t 0 = 0 ∧ win0_3.index t 1 = 0)

/-- The one write-back, after the last point, writes block (0, 0) of the row: the row itself. -/
theorem flushed_eq (c : Dev nD) (t : Fin cfg0.N) (hf : (cfg0.win 3).flush t = true) :
    (dats m 0 c).flushed 3 t = ((cfg0.win 3).blk t).view.read (Elt Ideal) (row m c) := by
  have hN : cfg0.N = 8 := N_0
  have h7 : t.val = 7 := by have := (flush0_3 t).mp hf; have := t.isLt; omega
  obtain rfl : t = Total.lastPoint := Fin.ext h7
  show (cfg0.win 3).cut (grid0.coords Total.lastPoint) ((dats m 0 c).after 3 Total.lastPoint) = _
  rw [after0_3, out_last_eq_row]
  obtain ⟨e0, e1⟩ := index_result Total.lastPoint
  funext j
  rw [View.read_apply]
  show row m c j = row m c (((cfg0.win 3).blk Total.lastPoint).view.emb j)
  refine congrArg (row m c) (funext fun a => Fin.ext ?_)
  match a with
  | ⟨0, _⟩ => show (j 0).val = win0_3.index Total.lastPoint 0 * 1 + 1 * (j 0).val; rw [e0]; omega
  | ⟨1, _⟩ => show (j 1).val = win0_3.index Total.lastPoint 1 * 2 + 1 * (j 1).val; rw [e1]; omega

/-- An index of the [1, 2] array is in point `t`'s block iff each coordinate is in the block's range on its axis. -/
theorem mem_block (t : Fin cfg0.N) (i : S1x2.Idx) :
    i ∈ ((cfg0.win 3).blk t).view.set ↔ ∀ a : Fin 2, win0_3.index t a * S1x2.size a ≤ (i a).val
      ∧ (i a).val < win0_3.index t a * S1x2.size a + S1x2.size a := by
  show i ∈ ((View.whole main_v0).slice (win0_3.rect t)).set ↔ _
  rw [View.set_slice_whole, Rect.mem_set_unit]
  exact Iff.rfl

/-- Every index of the array is in the block the last point writes back. -/
theorem covered (i : S1x2.Idx) : ∃ t : Fin cfg0.N, (cfg0.win 3).flush t = true ∧ i ∈ ((cfg0.win 3).blk t).view.set := by
  refine ⟨Total.lastPoint, (flush0_3 Total.lastPoint).mpr rfl, ?_⟩
  rw [mem_block]
  obtain ⟨e0, e1⟩ := index_result Total.lastPoint
  have h0 : (i 0).val < 1 := (i 0).isLt
  have h1 : (i 1).val < 2 := (i 1).isLt
  intro a
  match a with
  | ⟨0, _⟩ =>
    show win0_3.index Total.lastPoint 0 * 1 ≤ (i 0).val ∧ (i 0).val < win0_3.index Total.lastPoint 0 * 1 + 1
    omega
  | ⟨1, _⟩ =>
    show win0_3.index Total.lastPoint 1 * 2 ≤ (i 1).val ∧ (i 1).val < win0_3.index Total.lastPoint 1 * 2 + 2
    omega

/-- So the output's array ends holding the row. -/
theorem final_row (c : Dev nD) : (dats m 0 c).arrAt 3 cfg0.N = row m c :=
  (dats m 0 c).arrAt_eq_of_cover 3 (row m c) (flushed_eq m c) covered

/-- The host line after the region drops the row's leading unit axis: the result buffer ends at the loss. -/
theorem tail_eq (c : Dev nD) :
    Pipeline.afterTail₀ cfgs (dats m) 0 (V0 m) [hostOps1] c main_v1 = lossOf m c := by
  unfold Pipeline.afterTail₀
  show StableHlo.after hostOps1 _ (Proc.devRef .tc main_v1) = _
  after_results
  rw [(Pipeline.withArrays_arr spec0 launch0.win.arr_inj c _ _ 3).trans (final_row m c)]
  exact shapeCast_shapeCast (lossOf m c) Cert.KernelIdeal.Gen.shapeCasts_S2_S1x2 _

/-- The result buffer is unscoped and is no window's array, so the frame run's post speaks of it. -/
theorem result_mem_rest : main_v1 ∈ Pipeline.restRefs sig spec0 :=
  Pipeline.mem_restRefs_of main_v1 rfl (fun w => by fin_cases w <;> decide)

/-- The run, read: every weakly fair execution terminates with the result buffer at the loss of the argument arrays and
    the argument arrays unchanged. -/
theorem run : θ_run defs (onTc (τ := τ) (main (F := Ideal))) ⟨m, fun _ => 0, ρ⟩ fun r => ∀ c : Dev nD,
      r.2.mem ((c.tc : Thread nD τ).loc main_v1)
        = loss (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v1 result_mem_rest).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).1 2).trans (((dats m 0 c).arrAt_in 2 rfl _).trans ((A_eq m c 2).trans (V_main_arg2 m c)))⟩)
    (run_main m ρ)

end Cert.KernelIdeal.Final

end
-- ==== Proof.RefValue.lean ====
/-
  The reference program's result is the same function of the arguments.

  Read one host operation at a time: the product the reference sums is, at row `r`, step `t`, channel `v`, the element's
  contribution (the target channels are slices `[·, ·, 0:1]` and `[·, ·, 1:2]` repeated along the channel axis, the
  weight the [16384, 512] array given a trailing axis and repeated likewise); the reduce over the two leading axes is
  the initial value 0 plus the double sum over rows and steps; then the negation and the quotient by 2²³.
-/
import proofs.«120034_j73023033967188_1_alg».proof.Proof.Gen.ReferenceIdeal.Read
import proofs.«120034_j73023033967188_1_alg».proof.Proof.LossSpec

noncomputable section

open Idealize.ShloMosaic Idealize.ShloMosaic.ValueIdx

namespace Cert.ReferenceIdeal.RefValue

open Cert.ReferenceIdeal Cert.ReferenceIdeal.Gen Cert.ReferenceIdeal.Read Cert.LossSpec
open scoped BigOperators

/-- The product under the reduce, at row `r`, step `t`, channel `v`. -/
theorem summand_apply (x0 x1 : (⟨S16384x512x2, .f32⟩ : BufTy).Contents (Elt Ideal))
    (x2 : (⟨S16384x512, .f32⟩ : BufTy).Contents (Elt Ideal)) (r : Fin 16384) (t : Fin 512) (v : Fin 2) :
    val_main_v17 (F := Ideal) x0 x1 x2 (ix3 r t v)
      = cell (x0 (ix3 r t v)) (x1 (ix3 r t 0)) (x1 (ix3 r t 1)) (x2 (ix2 r t)) := by
  have i0 : idx_main_v0 (idx_main_v6 (ix3 r t v)) = ix3 r t 0 :=
    funext fun a => Fin.ext (by match a with | ⟨0, _⟩ => rfl | ⟨1, _⟩ => rfl | ⟨2, _⟩ => rfl)
  have i1 : idx_main_v8 (idx_main_v12 (ix3 r t v)) = ix3 r t 1 :=
    funext fun a => Fin.ext (by match a with | ⟨0, _⟩ => rfl | ⟨1, _⟩ => rfl | ⟨2, _⟩ => rfl)
  have i2 : idx_main_v15 (idx_main_v16 (ix3 r t v)) = ix2 r t :=
    funext fun a => Fin.ext (by match a with | ⟨0, _⟩ => rfl | ⟨1, _⟩ => rfl)
  rw [val_main_v17_apply, val_main_v14_apply, val_main_v7_apply, val_main_v6_apply, val_main_v0_apply,
    val_main_v5_apply, val_main_v4_apply, val_main_v2_apply, val_main_v1_apply, val_main_cst_apply,
    val_main_v3_apply, val_main_cst_0_apply, val_main_v13_apply, val_main_v12_apply, val_main_v8_apply,
    val_main_v11_apply, val_main_v10_apply, val_main_v9_apply, val_main_cst_1_apply, val_main_v16_apply,
    val_main_v15_apply, i0, i1, i2]
  rfl

/-- The host reduce over rows and steps keeps the channel coordinate. -/
theorem reduce_keeps_channel (h : S16384x512x2.ReducesTo [0, 1] S2) (i : S16384x512x2.Idx) :
    (h.drop i 0).val = (i 2).val :=
  Shape.ReducesTo.drop_apply_val_of_eq h i 0 2

/-- The reduce, channel by channel: the sum over all rows and steps of the contributions. -/
theorem total_apply (x0 x1 : (⟨S16384x512x2, .f32⟩ : BufTy).Contents (Elt Ideal))
    (x2 : (⟨S16384x512, .f32⟩ : BufTy).Contents (Elt Ideal)) (v : Fin 2) :
    val_main_v18 (F := Ideal) x0 x1 x2 (ix1 v) = rowsSum (R := 16384) x0 x1 x2 v := by
  unfold val_main_v18
  refine (LibSumAxes.hostReduceAdd_leading _ (val_main_v17 (F := Ideal) x0 x1 x2) _ (reduce_keeps_channel _) (ix1 v)).trans ?_
  rw [show val_main_cst_2 (F := Ideal) _ = 0 from Ideal.ofBits_zero_f32, zero_add]
  unfold rowsSum
  exact Finset.sum_congr rfl fun r _ => Finset.sum_congr rfl fun t _ => summand_apply x0 x1 x2 r t v

/-- The reference's result is the loss of its arguments. -/
theorem result_eq (x0 x1 : (⟨S16384x512x2, .f32⟩ : BufTy).Contents (Elt Ideal))
    (x2 : (⟨S16384x512, .f32⟩ : BufTy).Contents (Elt Ideal)) :
    val_main_v21 (F := Ideal) x0 x1 x2 = loss x0 x1 x2 := by
  funext j
  obtain ⟨v, rfl⟩ : ∃ v : Fin 2, j = ix1 v := ⟨j 0, eq_ix1 j⟩
  rw [val_main_v21_apply, val_main_v19_apply, val_main_v20_apply, val_main_cst_3_apply, total_apply]
  rfl

end Cert.ReferenceIdeal.RefValue

end
-- ==== Proof.lean ====
/-
  A weighted two-channel log-loss, computed two ways, is one function on the extended reals.

  Inputs: predictions `o` and targets `y`, both [16384, 512, 2], and weights `w` [16384, 512]. Channel `v` of the
  result is

      loss v = (−Σ over rows r and steps t of (y[r,t,0]·log((1 − o[r,t,v]) + ε) + y[r,t,1]·log(o[r,t,v] + ε))·w[r,t]) / 2²³

  with ε the f32 nearest 1e-8 (the same binary word in both programs) and 2²³ = 16384·512.

  The reference evaluates this directly: one elementwise product, one sum over the two leading axes from the initial
  value 0, a negation, a division. The kernel walks the rows in 8 blocks of 2048: at each grid point it adds the
  block's partial sums (a vector reduction over the block's two leading axes) to a [1, 2] accumulator that it reset to
  zero at the first point, and at the last point it stores (0 − accumulator) / 2²³, which the host then reshapes from
  [1, 2] to [2].

  Why they agree at the ideal instance. Elementwise the two programs apply the same exact operations to the same
  operands in the same order (the logarithm, the quotient and the negation of the host are those of the vector unit;
  a slice, a reshape and a broadcast only move elements). The accumulator after the last point is
  ((((0 + p₀) + p₁) + …) + p₇) of the blocks' partial sums pᵢ, which is Σᵢ pᵢ, and the blocks' sums regroup the sum
  over all 16384 rows: both steps use only that `+` on the extended reals is commutative and associative with
  neutral element 0, which holds at ±∞ as well, so the precondition (finite inputs) is not used for the values.
  Finally 0 − x = −x.

  The modules: LossSpec (the function and the regrouping), LibSumAxes / LibRunTotal / LibTrailingUnit (re-indexing of
  sums, the running total, layout reads on a trailing unit axis), KernelCases → KernelPayload → KernelTotal →
  KernelBlocks → KernelFinal (what the kernel's run leaves, from the body's stores up to the result buffer), RefValue
  (the reference's operations read at an index). The frames are the generated ones; the idealization rewrote nothing.
-/
import proofs.«120034_j73023033967188_1_alg».proof.Defs
import proofs.«120034_j73023033967188_1_alg».proof.Proof.Gen.Kernel
import proofs.«120034_j73023033967188_1_alg».proof.Proof.Gen.Kernel.Skeleton
import proofs.«120034_j73023033967188_1_alg».proof.Proof.Gen.Kernel.Launch
import proofs.«120034_j73023033967188_1_alg».proof.Proof.Gen.Kernel.Points
import proofs.«120034_j73023033967188_1_alg».proof.Proof.Gen.Kernel.Frame
import proofs.«120034_j73023033967188_1_alg».proof.Proof.Gen.KernelIdeal
import proofs.«120034_j73023033967188_1_alg».proof.Proof.Gen.KernelIdeal.Skeleton
import proofs.«120034_j73023033967188_1_alg».proof.Proof.Gen.KernelIdeal.Launch
import proofs.«120034_j73023033967188_1_alg».proof.Proof.Gen.KernelIdeal.Points
import proofs.«120034_j73023033967188_1_alg».proof.Proof.Gen.KernelIdeal.Frame
import proofs.«120034_j73023033967188_1_alg».proof.Proof.Gen.ReferenceIdeal
import proofs.«120034_j73023033967188_1_alg».proof.Proof.Gen.ReferenceIdeal.Run
import proofs.«120034_j73023033967188_1_alg».proof.Proof.Gen.ReferenceIdeal.Read
import proofs.«120034_j73023033967188_1_alg».proof.Proof.Gen.Pre_finite_inputs
import proofs.«120034_j73023033967188_1_alg».proof.Proof.KernelFinal
import proofs.«120034_j73023033967188_1_alg».proof.Proof.RefValue
import Idealize.ShloMosaic.Adequacy
import Idealize.ShloMosaic.Init

noncomputable section

namespace Cert.Proof

open Idealize.ShloMosaic Idealize.SL.Sem

/-- The word-level kernel runs and leaves its arguments alone: the generated frame. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the loss of their (agreeing) arguments in the result buffer. -/
theorem algebraic : Cert.algebraic_KernelIdeal_ReferenceIdeal := by
  intro m ρ m' ρ' _ hagree
  refine ⟨fun c => Cert.LossSpec.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
